-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048 : Shape := ⟨2, ![4, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x4096x2048 .f32) (main_arg1 : FVec F S4x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  main_v8
-- ==== Kernel.lean ====
abbrev S4x4096x2048 : Shape := ⟨3, ![4, 4096, 2048]⟩
abbrev S4x2048 : Shape := ⟨2, ![4, 2048]⟩
abbrev S4x3x2048 : Shape := ⟨3, ![4, 3, 2048]⟩
abbrev S1x4096x512 : Shape := ⟨3, ![1, 4096, 512]⟩
abbrev S4x512 : Shape := ⟨2, ![4, 512]⟩
abbrev S1x3x512 : Shape := ⟨3, ![1, 3, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x511x512 : Shape := ⟨3, ![1, 511, 512]⟩
abbrev S511x512 : Shape := ⟨2, ![511, 512]⟩
abbrev S1x510x512 : Shape := ⟨3, ![1, 510, 512]⟩
abbrev S510x512 : Shape := ⟨2, ![510, 512]⟩
abbrev S2x512 : Shape := ⟨2, ![2, 512]⟩
abbrev S1x509x512 : Shape := ⟨3, ![1, 509, 512]⟩
abbrev S509x512 : Shape := ⟨2, ![509, 512]⟩
abbrev S3x512 : Shape := ⟨2, ![3, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x4096x2048, .f32⟩
  | .hbm, ⟨3, _⟩ => ⟨S4x3x2048, .f32⟩
  | .local _ .vmem, ⟨0, _⟩ => ⟨S1x4096x512, .f32⟩
  | .local _ .vmem, ⟨1, _⟩ => ⟨S1x4096x512, .f32⟩
  | .local _ .vmem, ⟨2, _⟩ => ⟨S4x512, .f32⟩
  | .local _ .vmem, ⟨3, _⟩ => ⟨S4x512, .f32⟩
  | .local _ .vmem, ⟨4, _⟩ => ⟨S1x4096x512, .f32⟩
  | .local _ .vmem, ⟨5, _⟩ => ⟨S1x4096x512, .f32⟩
  | .local _ .vmem, ⟨6, _⟩ => ⟨S1x3x512, .f32⟩
  | .local _ .vmem, ⟨7, _⟩ => ⟨S1x3x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S4x512_S4x512_0_0 : ∀ a, (![0, 0] : Fin 2 → Nat) a + S4x512.size a ≤ S4x512.size a
  h_S4x512 : 0 < S4x512.numel
  slices_S4x512_o0_0_S1x512 : S4x512.Slices ![0, 0] S1x512
  shapeCasts_S1x512_S512 : S1x512.ShapeCasts S512
  shapeCasts_S512_S1x512 : S512.ShapeCasts S1x512
  inb_S1x4096x512_S1x512x512_0_0_0 : ∀ a, (![0, 0, 0] : Fin 3 → Nat) a + S1x512x512.size a ≤ S1x4096x512.size a
  h_S1x512x512 : 0 < S1x512x512.numel
  shapeCasts_S1x512x512_S512x512 : S1x512x512.ShapeCasts S512x512
  broadcasts_S1x512_S512x512 : S1x512.Broadcasts S512x512
  inb_S1x4096x512_S1x511x512_0_0_0 : ∀ a, (![0, 0, 0] : Fin 3 → Nat) a + S1x511x512.size a ≤ S1x4096x512.size a
  h_S1x511x512 : 0 < S1x511x512.numel
  shapeCasts_S1x511x512_S511x512 : S1x511x512.ShapeCasts S511x512
  concatenates_S1x512_S511x512_S512x512_d0 : Shape.Concatenates [S1x512, S511x512] S512x512 0
  slices_S4x512_o1_0_S1x512 : S4x512.Slices ![1, 0] S1x512
  inb_S1x4096x512_S1x510x512_0_0_0 : ∀ a, (![0, 0, 0] : Fin 3 → Nat) a + S1x510x512.size a ≤ S1x4096x512.size a
  h_S1x510x512 : 0 < S1x510x512.numel
  shapeCasts_S1x510x512_S510x512 : S1x510x512.ShapeCasts S510x512
  concatenates_S2x512_S510x512_S512x512_d0 : Shape.Concatenates [S2x512, S510x512] S512x512 0
  slices_S4x512_o2_0_S1x512 : S4x512.Slices ![2, 0] S1x512
  inb_S1x4096x512_S1x509x512_0_0_0 : ∀ a, (![0, 0, 0] : Fin 3 → Nat) a + S1x509x512.size a ≤ S1x4096x512.size a
  h_S1x509x512 : 0 < S1x509x512.numel
  shapeCasts_S1x509x512_S509x512 : S1x509x512.ShapeCasts S509x512
  concatenates_S3x512_S509x512_S512x512_d0 : Shape.Concatenates [S3x512, S509x512] S512x512 0
  slices_S4x512_o3_0_S1x512 : S4x512.Slices ![3, 0] S1x512
  shapeCasts_S512x512_S1x512x512 : S512x512.ShapeCasts S1x512x512
  inb_S1x4096x512_S1x512x512_0_512_0 : ∀ a, (![0, 512, 0] : Fin 3 → Nat) a + S1x512x512.size a ≤ S1x4096x512.size a
  inb_S1x4096x512_S1x512x512_0_511_0 : ∀ a, (![0, 511, 0] : Fin 3 → Nat) a + S1x512x512.size a ≤ S1x4096x512.size a
  inb_S1x4096x512_S1x512x512_0_510_0 : ∀ a, (![0, 510, 0] : Fin 3 → Nat) a + S1x512x512.size a ≤ S1x4096x512.size a
  inb_S1x4096x512_S1x512x512_0_509_0 : ∀ a, (![0, 509, 0] : Fin 3 → Nat) a + S1x512x512.size a ≤ S1x4096x512.size a
  inb_S1x4096x512_S1x512x512_0_1024_0 : ∀ a, (![0, 1024, 0] : Fin 3 → Nat) a + S1x512x512.size a ≤ S1x4096x512.size a
  inb_S1x4096x512_S1x512x512_0_1023_0 : ∀ a, (![0, 1023, 0] : Fin 3 → Nat) a + S1x512x512.size a ≤ S1x4096x512.size a
  inb_S1x4096x512_S1x512x512_0_1022_0 : ∀ a, (![0, 1022, 0] : Fin 3 → Nat) a + S1x512x512.size a ≤ S1x4096x512.size a
  inb_S1x4096x512_S1x512x512_0_1021_0 : ∀ a, (![0, 1021, 0] : Fin 3 → Nat) a + S1x512x512.size a ≤ S1x4096x512.size a
  inb_S1x4096x512_S1x512x512_0_1536_0 : ∀ a, (![0, 1536, 0] : Fin 3 → Nat) a + S1x512x512.size a ≤ S1x4096x512.size a
  inb_S1x4096x512_S1x512x512_0_1535_0 : ∀ a, (![0, 1535, 0] : Fin 3 → Nat) a + S1x512x512.size a ≤ S1x4096x512.size a
  inb_S1x4096x512_S1x512x512_0_1534_0 : ∀ a, (![0, 1534, 0] : Fin 3 → Nat) a + S1x512x512.size a ≤ S1x4096x512.size a
  inb_S1x4096x512_S1x512x512_0_1533_0 : ∀ a, (![0, 1533, 0] : Fin 3 → Nat) a + S1x512x512.size a ≤ S1x4096x512.size a
  inb_S1x4096x512_S1x512x512_0_2048_0 : ∀ a, (![0, 2048, 0] : Fin 3 → Nat) a + S1x512x512.size a ≤ S1x4096x512.size a
  inb_S1x4096x512_S1x512x512_0_2047_0 : ∀ a, (![0, 2047, 0] : Fin 3 → Nat) a + S1x512x512.size a ≤ S1x4096x512.size a
  inb_S1x4096x512_S1x512x512_0_2046_0 : ∀ a, (![0, 2046, 0] : Fin 3 → Nat) a + S1x512x512.size a ≤ S1x4096x512.size a
  inb_S1x4096x512_S1x512x512_0_2045_0 : ∀ a, (![0, 2045, 0] : Fin 3 → Nat) a + S1x512x512.size a ≤ S1x4096x512.size a
  inb_S1x4096x512_S1x512x512_0_2560_0 : ∀ a, (![0, 2560, 0] : Fin 3 → Nat) a + S1x512x512.size a ≤ S1x4096x512.size a
  inb_S1x4096x512_S1x512x512_0_2559_0 : ∀ a, (![0, 2559, 0] : Fin 3 → Nat) a + S1x512x512.size a ≤ S1x4096x512.size a
  inb_S1x4096x512_S1x512x512_0_2558_0 : ∀ a, (![0, 2558, 0] : Fin 3 → Nat) a + S1x512x512.size a ≤ S1x4096x512.size a
  inb_S1x4096x512_S1x512x512_0_2557_0 : ∀ a, (![0, 2557, 0] : Fin 3 → Nat) a + S1x512x512.size a ≤ S1x4096x512.size a
  inb_S1x4096x512_S1x512x512_0_3072_0 : ∀ a, (![0, 3072, 0] : Fin 3 → Nat) a + S1x512x512.size a ≤ S1x4096x512.size a
  inb_S1x4096x512_S1x512x512_0_3071_0 : ∀ a, (![0, 3071, 0] : Fin 3 → Nat) a + S1x512x512.size a ≤ S1x4096x512.size a
  inb_S1x4096x512_S1x512x512_0_3070_0 : ∀ a, (![0, 3070, 0] : Fin 3 → Nat) a + S1x512x512.size a ≤ S1x4096x512.size a
  inb_S1x4096x512_S1x512x512_0_3069_0 : ∀ a, (![0, 3069, 0] : Fin 3 → Nat) a + S1x512x512.size a ≤ S1x4096x512.size a
  inb_S1x4096x512_S1x512x512_0_3584_0 : ∀ a, (![0, 3584, 0] : Fin 3 → Nat) a + S1x512x512.size a ≤ S1x4096x512.size a
  inb_S1x4096x512_S1x512x512_0_3583_0 : ∀ a, (![0, 3583, 0] : Fin 3 → Nat) a + S1x512x512.size a ≤ S1x4096x512.size a
  inb_S1x4096x512_S1x512x512_0_3582_0 : ∀ a, (![0, 3582, 0] : Fin 3 → Nat) a + S1x512x512.size a ≤ S1x4096x512.size a
  inb_S1x4096x512_S1x512x512_0_3581_0 : ∀ a, (![0, 3581, 0] : Fin 3 → Nat) a + S1x512x512.size a ≤ S1x4096x512.size a
  inb_S1x4096x512_S1x3x512_0_4093_0 : ∀ a, (![0, 4093, 0] : Fin 3 → Nat) a + S1x3x512.size a ≤ S1x4096x512.size a
  h_S1x3x512 : 0 < S1x3x512.numel
  shapeCasts_S1x3x512_S3x512 : S1x3x512.ShapeCasts S3x512
  inb_S1x3x512_S1x3x512_0_0_0 : ∀ a, (![0, 0, 0] : Fin 3 → Nat) a + S1x3x512.size a ≤ S1x3x512.size a
  shapeCasts_S3x512_S1x3x512 : S3x512.ShapeCasts S1x3x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x2048.size a
  hwx0_0 : ∀ i : grid0.Coords, EltTy.bits .f32 = 32 ∨ (Rect.block (s := S4x4096x2048) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x2048.size a
  hwx0_1 : ∀ i : grid0.Coords, EltTy.bits .f32 = 32 ∨ (Rect.block (s := S4x2048) S4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x512.size a ≤ S4x4096x2048.size a
  hwx0_2 : ∀ i : grid0.Coords, EltTy.bits .f32 = 32 ∨ (Rect.block (s := S4x4096x2048) S1x4096x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x512.size a ≤ S4x3x2048.size a
  hwx0_3 : ∀ i : grid0.Coords, EltTy.bits .f32 = 32 ∨ (Rect.block (s := S4x3x2048) S1x3x512.size (cc0_transform_3 i) (hinb0_3 i)).WholeWords (EltTy.packing .f32)

variable [Facts₀]

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x3x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048 : Shape := ⟨2, ![4, 2048]⟩
abbrev S_ : Shape := ⟨0, ![]⟩
abbrev S4x3x2048 : Shape := ⟨3, ![4, 3, 2048]⟩
abbrev S4x4099x2048 : Shape := ⟨3, ![4, 4099, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S_, .f32⟩
  | .hbm, ⟨3, _⟩ => ⟨S4x3x2048, .f32⟩
  | .hbm, ⟨4, _⟩ => ⟨S4x4099x2048, .f32⟩
  | .hbm, ⟨5, _⟩ => ⟨S1x2048, .f32⟩
  | .hbm, ⟨6, _⟩ => ⟨S2048, .f32⟩
  | .hbm, ⟨7, _⟩ => ⟨S1x1x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S1x2048, .f32⟩
  | .hbm, ⟨12, _⟩ => ⟨S2048, .f32⟩
  | .hbm, ⟨13, _⟩ => ⟨S1x1x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x3x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S4x3x2048 : S_.BroadcastsInDim S4x3x2048 (![] : Fin 0 → Fin S4x3x2048.rank)
  concatenates_S4x3x2048_S4x4096x2048_S4x4099x2048_d1 : Shape.Concatenates [S4x3x2048, S4x4096x2048] S4x4099x2048 1
  slices_S4x2048_S1x2048_0_0 : S4x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  slices_S4x4099x2048_S4x4096x2048_0_3_0 : S4x4099x2048.Slices ![0, 3, 0] S4x4096x2048
  bcast_S1x1x2048_S4x4096x2048_0_1_2 : S1x1x2048.BroadcastsInDim S4x4096x2048 (![0, 1, 2] : Fin 3 → Fin S4x4096x2048.rank)
  slices_S4x2048_S1x2048_1_0 : S4x2048.Slices ![1, 0] S1x2048
  slices_S4x4099x2048_S4x4096x2048_0_2_0 : S4x4099x2048.Slices ![0, 2, 0] S4x4096x2048
  slices_S4x2048_S1x2048_2_0 : S4x2048.Slices ![2, 0] S1x2048
  slices_S4x4099x2048_S4x4096x2048_0_1_0 : S4x4099x2048.Slices ![0, 1, 0] S4x4096x2048
  slices_S4x2048_S1x2048_3_0 : S4x2048.Slices ![3, 0] S1x2048
  slices_S4x4099x2048_S4x4096x2048_0_0_0 : S4x4099x2048.Slices ![0, 0, 0] S4x4096x2048
  bcast_S_S4x4096x2048 : S_.BroadcastsInDim S4x4096x2048 (![] : Fin 0 → Fin S4x4096x2048.rank)
  slices_S4x4099x2048_S4x3x2048_0_4096_0 : S4x4099x2048.Slices ![0, 4096, 0] S4x3x2048

variable [Facts₀]

class Facts : Prop extends Facts₀ where

variable [Facts]
-- ==== Proof.Spec.lean ====
/-
  The specification: a causal depthwise convolution of four taps followed by the activation `y · logistic y`, and the last three
  time steps of the input, each as ONE function of the argument arrays, entry by entry, on the extended reals.

  `X` is the input, [batch 4, time 4096, channel 2048]; `K` the taps, [tap 4, channel 2048]. With `past j` the input `j` steps
  earlier, and zero before the first step,
      conv X K (b, t, c) = act (((K(0,c) · past 0 + K(1,c) · past 1) + K(2,c) · past 2) + K(3,c) · past 3),
      lastRows X (b, s, c) = X (b, 4093 + s, c).
  The sum is taken from the first tap on, the order both programs use, so nothing here needs an input to be finite.
-/
import Idealize.ShloMosaic.PureOps.Ideal
import Idealize.ShloMosaic.Lib.ValueIdx

noncomputable section

namespace Cert.ConvSpec

open Idealize.ShloMosaic Idealize.ShloMosaic.ValueIdx

/-- The activation: `y · logistic y`. -/
def act (y : EReal) : EReal := y * Ideal.logistic y

/-- The word every padded entry holds: the float zero. -/
abbrev zeroWord : EReal := (Scalar.ofBits (F := Ideal) .f32 0x00000000#32 : Ideal .f32)

abbrev XS : Shape := ⟨3, ![4, 4096, 2048]⟩
abbrev KS : Shape := ⟨2, ![4, 2048]⟩
abbrev CS : Shape := ⟨3, ![4, 3, 2048]⟩

/-- The input `j` steps before time `t`; the zero word before the first step. -/
def past (X : XS.Idx → EReal) (j : Nat) (b : Fin 4) (t : Fin 4096) (c : Fin 2048) : EReal :=
  if h : j ≤ t.val then X (ix3 b (⟨t.val - j, by have := t.isLt; omega⟩ : Fin 4096) c) else zeroWord

theorem past_of_le (X : XS.Idx → EReal) (j : Nat) (b : Fin 4) (t : Fin 4096) (c : Fin 2048) (k : Fin 4096) (hk : k.val + j = t.val) :
    past X j b t c = X (ix3 b k c) := by
  unfold past
  rw [dif_pos (by omega)]
  exact congrArg (fun z => X (ix3 b z c)) (Fin.ext (by show t.val - j = k.val; omega))

theorem past_of_lt (X : XS.Idx → EReal) (j : Nat) (b : Fin 4) (t : Fin 4096) (c : Fin 2048) (h : t.val < j) :
    past X j b t c = zeroWord := by
  unfold past
  rw [dif_neg (by omega)]

/-- The convolution and activation at batch `b`, time `t`, channel `c`. -/
def convAt (X : XS.Idx → EReal) (K : KS.Idx → EReal) (b : Fin 4) (t : Fin 4096) (c : Fin 2048) : EReal :=
  act (((K (ix2 (0 : Fin 4) c) * past X 0 b t c + K (ix2 (1 : Fin 4) c) * past X 1 b t c) + K (ix2 (2 : Fin 4) c) * past X 2 b t c)
    + K (ix2 (3 : Fin 4) c) * past X 3 b t c)

/-- The first result: the whole output array. -/
def conv (X : XS.Idx → EReal) (K : KS.Idx → EReal) : XS.Idx → EReal := fun i => convAt X K (i 0) (i 1) (i 2)

/-- The second result: the input's last three time steps. -/
def lastRows (X : XS.Idx → EReal) : CS.Idx → EReal :=
  fun i => X (ix3 (i 0) (⟨4093 + (i 1).val, by have : (i 1).val < 3 := (i 1).isLt; omega⟩ : Fin 4096) (i 2))

end Cert.ConvSpec

end
-- ==== Proof.TapSum.lean ====
/-
  The arithmetic of one chunk of the causal depthwise convolution, as ONE tree of vector operations.

  A chunk is 512 consecutive time steps of one (batch, channel-tile) block. For every chunk the body forms
      y = ((k₀ ⊙ m₀ + k₁ ⊙ m₁) + k₂ ⊙ m₂) + k₃ ⊙ m₃,      out = y ⊙ logistic y
  where k_j is row j of the 4×512 tap block repeated down the 512 rows and m_j is the 512×512 matrix of inputs
  j steps earlier. The eight chunks differ only in which rows of the input block the m_j are (and, for the first
  chunk, in the zero rows standing for the time steps before the sequence starts), so all eight stored values are
  this one tree: the equations below hold by unfolding.
-/
import proofs.«139739_j27247272525827_2_alg».proof.Proof.Gen.KernelIdeal.Skeleton
import proofs.«139739_j27247272525827_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Conv

open Cert.KernelIdeal Cert.KernelIdeal.Gen Cert.ConvSpec Idealize.ShloMosaic Idealize.ShloMosaic.ValueIdx

variable {F : FTy → Type} [FloatOps F]

/-- Row `off 0` of the tap block repeated down 512 rows. -/
def tapRows (off : Fin 2 → Nat) (h : S4x512.Slices off S1x512) (kb : Vec F S4x512 .f32) : FVec F S512x512 .f32 :=
  broadcastTo S512x512 (shapeCast S1x512 (shapeCast S512 (extractStridedSlice S1x512 off kb h) shapeCasts_S1x512_S512)
    shapeCasts_S512_S1x512) broadcasts_S1x512_S512x512

/-- A loaded 1×512×512 piece of the input block as a 512×512 matrix. -/
def mat (a : Vec F S1x512x512 .f32) : FVec F S512x512 .f32 := shapeCast S512x512 a shapeCasts_S1x512x512_S512x512

/-- The four-tap sum before the activation. -/
def tapAcc (kb : Vec F S4x512 .f32) (m0 m1 m2 m3 : FVec F S512x512 .f32) : FVec F S512x512 .f32 :=
  addf (addf (addf (mulf (tapRows ![0, 0] slices_S4x512_o0_0_S1x512 kb) m0) (mulf (tapRows ![1, 0] slices_S4x512_o1_0_S1x512 kb) m1))
    (mulf (tapRows ![2, 0] slices_S4x512_o2_0_S1x512 kb) m2)) (mulf (tapRows ![3, 0] slices_S4x512_o3_0_S1x512 kb) m3)

/-- One chunk's stored value: the four-tap sum times its logistic, as a 1×512×512 piece. -/
def tapSum (kb : Vec F S4x512 .f32) (m0 m1 m2 m3 : FVec F S512x512 .f32) : FVec F S1x512x512 .f32 :=
  shapeCast S1x512x512 (mulf (tapAcc kb m0 m1 m2 m3) (logistic (tapAcc kb m0 m1 m2 m3))) shapeCasts_S512x512_S1x512x512

/-- `n` zero rows on top of the first `512 - n` rows of the input block: the inputs `n` steps earlier, for the first chunk. -/
def pad1 (b : Vec F S1x511x512 .f32) : FVec F S512x512 .f32 :=
  concatenate S512x512 0 [⟨S1x512, broadcast S1x512 (Scalar.ofBits .f32 0x00000000#32)⟩, ⟨S511x512, shapeCast S511x512 b shapeCasts_S1x511x512_S511x512⟩] concatenates_S1x512_S511x512_S512x512_d0
def pad2 (b : Vec F S1x510x512 .f32) : FVec F S512x512 .f32 :=
  concatenate S512x512 0 [⟨S2x512, broadcast S2x512 (Scalar.ofBits .f32 0x00000000#32)⟩, ⟨S510x512, shapeCast S510x512 b shapeCasts_S1x510x512_S510x512⟩] concatenates_S2x512_S510x512_S512x512_d0
def pad3 (b : Vec F S1x509x512 .f32) : FVec F S512x512 .f32 :=
  concatenate S512x512 0 [⟨S3x512, broadcast S3x512 (Scalar.ofBits .f32 0x00000000#32)⟩, ⟨S509x512, shapeCast S509x512 b shapeCasts_S1x509x512_S509x512⟩] concatenates_S3x512_S509x512_S512x512_d0

/-! ## Every chunk's stored value is the tree -/

theorem chunk0_eq (kb : Vec F S4x512 .f32) (a0 : Vec F S1x512x512 .f32) (b1 : Vec F S1x511x512 .f32) (b2 : Vec F S1x510x512 .f32) (b3 : Vec F S1x509x512 .f32) :
    k0_pay4 (k0_pay3 kb a0 b1 b2 b3) = tapSum kb (mat a0) (pad1 b1) (pad2 b2) (pad3 b3) := rfl
theorem chunk1_eq (kb : Vec F S4x512 .f32) (a0 a1 a2 a3 : Vec F S1x512x512 .f32) :
    k0_pay5 kb a0 a1 a2 a3 = tapSum kb (mat a0) (mat a1) (mat a2) (mat a3) := rfl
theorem chunk2_eq (kb : Vec F S4x512 .f32) (a0 a1 a2 a3 : Vec F S1x512x512 .f32) :
    k0_pay7 kb (k0_pay6 kb) a0 a1 a2 a3 = tapSum kb (mat a0) (mat a1) (mat a2) (mat a3) := rfl
theorem chunk3_eq (kb : Vec F S4x512 .f32) (a0 a1 a2 a3 : Vec F S1x512x512 .f32) :
    k0_pay9 kb (k0_pay8 kb a0) a1 a2 a3 = tapSum kb (mat a0) (mat a1) (mat a2) (mat a3) := rfl
theorem chunk4_eq (kb : Vec F S4x512 .f32) (a0 a1 a2 a3 : Vec F S1x512x512 .f32) :
    k0_pay13 kb (k0_pay10 kb a0) (k0_pay11 a1) (k0_pay12 kb) a2 a3 = tapSum kb (mat a0) (mat a1) (mat a2) (mat a3) := rfl
theorem chunk5_eq (kb : Vec F S4x512 .f32) (a0 a1 a2 a3 : Vec F S1x512x512 .f32) :
    k0_pay16 kb (k0_pay14 kb a0 a1) (k0_pay15 a2) a3 = tapSum kb (mat a0) (mat a1) (mat a2) (mat a3) := rfl
theorem chunk6_eq (kb : Vec F S4x512 .f32) (a0 a1 a2 a3 : Vec F S1x512x512 .f32) :
    k0_pay18 kb (k0_pay17 kb a0 a1 a2) a3 = tapSum kb (mat a0) (mat a1) (mat a2) (mat a3) := rfl
theorem chunk7_eq (kb : Vec F S4x512 .f32) (a0 a1 a2 a3 : Vec F S1x512x512 .f32) :
    k0_pay1 (k0_pay19 kb a0 a1 a2) (k0_pay20 kb a3) = tapSum kb (mat a0) (mat a1) (mat a2) (mat a3) := rfl

/-! ## The tree's parts at an entry -/

/-- Tap row `j` repeated down the rows reads, at `(r, q)`, the tap block at `(j, q)`. -/
theorem tapRows_apply (o : Nat) (h : S4x512.Slices ![o, 0] S1x512) (kb : Vec F S4x512 .f32) (j : Fin 4) (hj : j.val = o)
    (r q : Fin 512) : tapRows ![o, 0] h kb (ix2 r q) = kb (ix2 j q) := by
  unfold tapRows
  rw [broadcastTo_1b_ab_apply, shapeCast_a_1a_apply, shapeCast_1a_a_apply]
  exact slice2_axis0_apply o kb h (0 : Fin 1) q j (by rw [hj]; rfl)

/-- A loaded piece as a matrix reads, at `(r, q)`, the piece at `(0, r, q)`. -/
theorem mat_apply (a : Vec F S1x512x512 .f32) (r q : Fin 512) : mat a (ix2 r q) = a (ix3 (0 : Fin 1) r q) :=
  shapeCast_1ab_ab_apply a shapeCasts_S1x512x512_S512x512 r q

/-- `n` rows of a constant `z` on top of an `m`-row piece (`n + m = 512`) read, at `(r, q)`, `z` on the first `n` rows and the
    piece `n` rows higher below them. -/
theorem pad_apply {α : Type} (n m : Nat) (z : α) (b : (⟨3, ![1, m, 512]⟩ : Shape).Idx → α)
    (hc : (⟨3, ![1, m, 512]⟩ : Shape).ShapeCasts ⟨2, ![m, 512]⟩)
    (h : Shape.Concatenates [(⟨2, ![n, 512]⟩ : Shape), ⟨2, ![m, 512]⟩] ⟨2, ![512, 512]⟩ 0) (hnm : n + m = 512)
    (r q : Fin 512) :
    concatenate ⟨2, ![512, 512]⟩ 0 [⟨⟨2, ![n, 512]⟩, broadcast ⟨2, ![n, 512]⟩ z⟩, ⟨⟨2, ![m, 512]⟩, shapeCast ⟨2, ![m, 512]⟩ b hc⟩] h (ix2 r q)
      = if hr : r.val < n then z else b (ix3 (0 : Fin 1) ⟨r.val - n, by have := r.isLt; omega⟩ q) := by
  split
  · rename_i hr
    exact concatenate_pair_apply_left (t := ⟨2, ![512, 512]⟩) (s₁ := ⟨2, ![n, 512]⟩) (s₂ := ⟨2, ![m, 512]⟩) (0 : Fin 2) _ _ h (ix2 r q) rfl
      (ix2 (⟨r.val, hr⟩ : Fin n) q)
      (fun b => by match b with | ⟨0, _⟩ => rfl | ⟨1, _⟩ => rfl)
  · rename_i hr
    refine (concatenate_pair_apply_right (t := ⟨2, ![512, 512]⟩) (s₁ := ⟨2, ![n, 512]⟩) (s₂ := ⟨2, ![m, 512]⟩) (0 : Fin 2) _ _ h (ix2 r q) rfl rfl
      (ix2 (⟨r.val - n, by have := r.isLt; omega⟩ : Fin m) q)
      (fun b hb => ?_) ?_).trans ?_
    · match b with
      | ⟨0, _⟩ => exact absurd rfl hb
      | ⟨1, _⟩ => rfl
    · show (r.val - n) + n = r.val; omega
    · exact shapeCast_1ab_ab_apply b hc _ q

/-! ## The tree at an entry, on the extended reals -/

/-- The chunk's stored value at `(0, r, q)`: the activation of the four taps at lane `q` times the four operands at `(r, q)`,
    summed from the first tap on. -/
theorem tapSum_apply (kb : Vec Ideal S4x512 .f32) (m0 m1 m2 m3 : FVec Ideal S512x512 .f32) (u : Fin 1) (r q : Fin 512) :
    tapSum kb m0 m1 m2 m3 (ix3 u r q)
      = act (((kb (ix2 (0 : Fin 4) q) * m0 (ix2 r q) + kb (ix2 (1 : Fin 4) q) * m1 (ix2 r q)) + kb (ix2 (2 : Fin 4) q) * m2 (ix2 r q))
          + kb (ix2 (3 : Fin 4) q) * m3 (ix2 r q)) := by
  unfold tapSum
  rw [shapeCast_ab_1ab_apply]
  have hacc : tapAcc kb m0 m1 m2 m3 (ix2 r q)
      = ((kb (ix2 (0 : Fin 4) q) * m0 (ix2 r q) + kb (ix2 (1 : Fin 4) q) * m1 (ix2 r q)) + kb (ix2 (2 : Fin 4) q) * m2 (ix2 r q))
          + kb (ix2 (3 : Fin 4) q) * m3 (ix2 r q) := by
    unfold tapAcc
    rw [addf_apply, addf_apply, addf_apply, mulf_apply, mulf_apply, mulf_apply, mulf_apply,
      tapRows_apply 0 _ kb 0 rfl, tapRows_apply 1 _ kb 1 rfl, tapRows_apply 2 _ kb 2 rfl, tapRows_apply 3 _ kb 3 rfl]
  show tapAcc kb m0 m1 m2 m3 (ix2 r q) * Ideal.logistic (tapAcc kb m0 m1 m2 m3 (ix2 r q)) = _
  rw [hacc]; rfl

end Cert.KernelIdeal.Conv

end
-- ==== Proof.Block.lean ====
/-
  What one grid point leaves in its output block, entry by entry.

  A grid point owns one batch and one tile of 512 channels: a block of 4096 time steps by 512 channels of the input, the
  4×512 tile of taps, and the same block of the output. Write `back j r q` for the input block `j` steps before row `r` at
  lane `q`, zero when that step is before the block's first row (the sequence is causally padded with zeros). Then the
  output block at `(r, q)` is
      act (((k₀ · back 0 + k₁ · back 1) + k₂ · back 2) + k₃ · back 3),     k_j = tap j at lane q.
  The body writes the block in eight chunks of 512 rows. A chunk after the first loads its four operands from rows
  `o - j … o - j + 511` (`o` its first row), all inside the block; the first chunk loads rows `0 … 511 - j` and puts `j` zero
  rows on top. Either way the chunk's entry `(r, q)` is the formula at row `o + r`.
-/
import proofs.«139739_j27247272525827_2_alg».proof.Proof.TapSum
import proofs.«139739_j27247272525827_2_alg».proof.Proof.Gen.KernelIdeal.Frame

noncomputable section

namespace Cert.KernelIdeal.Conv

open Cert.KernelIdeal Cert.KernelIdeal.Gen Cert.ConvSpec Idealize.ShloMosaic Idealize.ShloMosaic.ValueIdx

/-- The input block `j` steps before row `r`, at lane `q`; the zero word before the block's first row. -/
def back (x0 : Vec Ideal S1x4096x512 .f32) (j : Nat) (r : Fin 4096) (q : Fin 512) : EReal :=
  if h : j ≤ r.val then x0 (ix3 (0 : Fin 1) ⟨r.val - j, by have := r.isLt; omega⟩ q) else zeroWord

theorem back_of_le (x0 : Vec Ideal S1x4096x512 .f32) (j : Nat) (r : Fin 4096) (q : Fin 512) (k : Fin 4096) (hk : k.val + j = r.val) :
    back x0 j r q = x0 (ix3 (0 : Fin 1) k q) := by
  unfold back
  rw [dif_pos (by omega)]
  exact congrArg (fun z => x0 (ix3 (0 : Fin 1) z q)) (Fin.ext (by show r.val - j = k.val; omega))

theorem back_of_lt (x0 : Vec Ideal S1x4096x512 .f32) (j : Nat) (r : Fin 4096) (q : Fin 512) (h : r.val < j) :
    back x0 j r q = zeroWord := by
  unfold back
  rw [dif_neg (by omega)]

/-- The output block at row `r`, lane `q`. -/
def blockAt (x0 : Vec Ideal S1x4096x512 .f32) (x1 : Vec Ideal S4x512 .f32) (r : Fin 4096) (q : Fin 512) : EReal :=
  act (((x1 (ix2 (0 : Fin 4) q) * back x0 0 r q + x1 (ix2 (1 : Fin 4) q) * back x0 1 r q) + x1 (ix2 (2 : Fin 4) q) * back x0 2 r q)
    + x1 (ix2 (3 : Fin 4) q) * back x0 3 r q)

/-- The output block as one function of the input block and the tap tile. -/
def blockOut (x0 : Vec Ideal S1x4096x512 .f32) (x1 : Vec Ideal S4x512 .f32) : Vec Ideal S1x4096x512 .f32 :=
  fun y => blockAt x0 x1 (y 1) (y 2)

/-- A load of `m` rows from row `o` of the block reads, at `(0, r, q)`, the block at row `o + r`. -/
theorem ld_rows {F : FTy → Type} (x0 : Vec F S1x4096x512 .f32) (o m : Nat)
    (inb : ∀ a, (![0, o, 0] : Fin 3 → Nat) a + (![1, m, 512] : Fin 3 → Nat) a ≤ S1x4096x512.size a) (hom : o + m ≤ 4096)
    (r : Fin m) (q : Fin 512) :
    View.ld x0 (Rect.unit (s := S1x4096x512) ![0, o, 0] ![1, m, 512] inb) (ix3 (0 : Fin 1) r q)
      = x0 (ix3 (0 : Fin 1) (⟨o + r.val, by have := r.isLt; omega⟩ : Fin 4096) q) := by
  show x0 ((Rect.unit (s := S1x4096x512) ![0, o, 0] ![1, m, 512] inb).idx (ix3 (0 : Fin 1) r q)) = _
  refine congrArg x0 (funext fun a => Fin.ext ?_)
  match a with
  | ⟨0, _⟩ => show 0 + 1 * 0 = 0; omega
  | ⟨1, _⟩ => show o + 1 * r.val = o + r.val; omega
  | ⟨2, _⟩ => show 0 + 1 * q.val = q.val; omega

/-- A CHUNK AFTER THE FIRST: four operands that are the block's rows `o_j + r`, with `o_j + j = o`, make the chunk's entry `(r, q)`
    the block formula at row `o + r`. -/
theorem chunk_at (x0 : Vec Ideal S1x4096x512 .f32) (x1 : Vec Ideal S4x512 .f32) (o o1 o2 o3 : Nat)
    (e1 : o1 + 1 = o) (e2 : o2 + 2 = o) (e3 : o3 + 3 = o) (hob : o + 512 ≤ 4096)
    (a0 a1 a2 a3 : Vec Ideal S1x512x512 .f32)
    (h0 : ∀ r q : Fin 512, a0 (ix3 (0 : Fin 1) r q) = x0 (ix3 (0 : Fin 1) (⟨o + r.val, by have := r.isLt; omega⟩ : Fin 4096) q))
    (h1 : ∀ r q : Fin 512, a1 (ix3 (0 : Fin 1) r q) = x0 (ix3 (0 : Fin 1) (⟨o1 + r.val, by have := r.isLt; omega⟩ : Fin 4096) q))
    (h2 : ∀ r q : Fin 512, a2 (ix3 (0 : Fin 1) r q) = x0 (ix3 (0 : Fin 1) (⟨o2 + r.val, by have := r.isLt; omega⟩ : Fin 4096) q))
    (h3 : ∀ r q : Fin 512, a3 (ix3 (0 : Fin 1) r q) = x0 (ix3 (0 : Fin 1) (⟨o3 + r.val, by have := r.isLt; omega⟩ : Fin 4096) q))
    (u : Fin 1) (r q : Fin 512) :
    tapSum x1 (mat a0) (mat a1) (mat a2) (mat a3) (ix3 u r q) = blockAt x0 x1 (⟨o + r.val, by have := r.isLt; omega⟩ : Fin 4096) q := by
  rw [tapSum_apply, mat_apply, mat_apply, mat_apply, mat_apply, h0, h1, h2, h3]
  unfold blockAt
  rw [back_of_le x0 0 _ q ⟨o + r.val, by have := r.isLt; omega⟩ rfl,
    back_of_le x0 1 _ q ⟨o1 + r.val, by have := r.isLt; omega⟩ (by show o1 + r.val + 1 = o + r.val; omega),
    back_of_le x0 2 _ q ⟨o2 + r.val, by have := r.isLt; omega⟩ (by show o2 + r.val + 2 = o + r.val; omega),
    back_of_le x0 3 _ q ⟨o3 + r.val, by have := r.isLt; omega⟩ (by show o3 + r.val + 3 = o + r.val; omega)]

/-- `n` zero rows on top of the block's first `m` rows (`n + m = 512`) are, at `(r, q)`, the block `n` steps before row `r`. -/
theorem pad_back (x0 : Vec Ideal S1x4096x512 .f32) (n m : Nat) (hnm : n + m = 512)
    (b : (⟨3, ![1, m, 512]⟩ : Shape).Idx → EReal)
    (hc : (⟨3, ![1, m, 512]⟩ : Shape).ShapeCasts ⟨2, ![m, 512]⟩)
    (h : Shape.Concatenates [(⟨2, ![n, 512]⟩ : Shape), ⟨2, ![m, 512]⟩] ⟨2, ![512, 512]⟩ 0)
    (hb : ∀ (r : Fin m) (q : Fin 512), b (ix3 (0 : Fin 1) r q) = x0 (ix3 (0 : Fin 1) (⟨0 + r.val, by have := r.isLt; omega⟩ : Fin 4096) q))
    (r q : Fin 512) :
    concatenate ⟨2, ![512, 512]⟩ 0 [⟨⟨2, ![n, 512]⟩, broadcast ⟨2, ![n, 512]⟩ zeroWord⟩, ⟨⟨2, ![m, 512]⟩, shapeCast ⟨2, ![m, 512]⟩ b hc⟩] h (ix2 r q)
      = back x0 n (⟨r.val, by have := r.isLt; omega⟩ : Fin 4096) q := by
  rw [pad_apply n m zeroWord b hc h hnm r q]
  split
  · rename_i hr
    exact (back_of_lt x0 n _ q hr).symm
  · rename_i hr
    rw [hb]
    exact (back_of_le x0 n _ q _ (by show 0 + (r.val - n) + n = r.val; omega)).symm

/-- THE FIRST CHUNK: the operand `j` steps back is `j` zero rows on top of the block's first `512 - j` rows, so the chunk's entry
    `(r, q)` is the block formula at row `r`. -/
theorem chunk0_at (x0 : Vec Ideal S1x4096x512 .f32) (x1 : Vec Ideal S4x512 .f32)
    (a0 : Vec Ideal S1x512x512 .f32) (b1 : Vec Ideal S1x511x512 .f32) (b2 : Vec Ideal S1x510x512 .f32) (b3 : Vec Ideal S1x509x512 .f32)
    (h0 : ∀ r q : Fin 512, a0 (ix3 (0 : Fin 1) r q) = x0 (ix3 (0 : Fin 1) (⟨0 + r.val, by have := r.isLt; omega⟩ : Fin 4096) q))
    (h1 : ∀ (r : Fin 511) (q : Fin 512), b1 (ix3 (0 : Fin 1) r q) = x0 (ix3 (0 : Fin 1) (⟨0 + r.val, by have := r.isLt; omega⟩ : Fin 4096) q))
    (h2 : ∀ (r : Fin 510) (q : Fin 512), b2 (ix3 (0 : Fin 1) r q) = x0 (ix3 (0 : Fin 1) (⟨0 + r.val, by have := r.isLt; omega⟩ : Fin 4096) q))
    (h3 : ∀ (r : Fin 509) (q : Fin 512), b3 (ix3 (0 : Fin 1) r q) = x0 (ix3 (0 : Fin 1) (⟨0 + r.val, by have := r.isLt; omega⟩ : Fin 4096) q))
    (u : Fin 1) (r q : Fin 512) :
    tapSum x1 (mat a0) (pad1 b1) (pad2 b2) (pad3 b3) (ix3 u r q) = blockAt x0 x1 (⟨r.val, by have := r.isLt; omega⟩ : Fin 4096) q := by
  rw [tapSum_apply, mat_apply, h0]
  have p1 : pad1 b1 (ix2 r q) = back x0 1 (⟨r.val, by have := r.isLt; omega⟩ : Fin 4096) q :=
    pad_back x0 1 511 rfl b1 shapeCasts_S1x511x512_S511x512 concatenates_S1x512_S511x512_S512x512_d0 h1 r q
  have p2 : pad2 b2 (ix2 r q) = back x0 2 (⟨r.val, by have := r.isLt; omega⟩ : Fin 4096) q :=
    pad_back x0 2 510 rfl b2 shapeCasts_S1x510x512_S510x512 concatenates_S2x512_S510x512_S512x512_d0 h2 r q
  have p3 : pad3 b3 (ix2 r q) = back x0 3 (⟨r.val, by have := r.isLt; omega⟩ : Fin 4096) q :=
    pad_back x0 3 509 rfl b3 shapeCasts_S1x509x512_S509x512 concatenates_S3x512_S509x512_S512x512_d0 h3 r q
  rw [p1, p2, p3]
  unfold blockAt
  rw [back_of_le x0 0 _ q ⟨0 + r.val, by have := r.isLt; omega⟩ (by show 0 + r.val + 0 = r.val; omega)]

/-- The block function under a chunk's 512-row rectangle from row `o`, at the chunk's entry `(u, r, q)`, is the formula at row `o + r`. -/
theorem blockOut_idx (x0 : Vec Ideal S1x4096x512 .f32) (x1 : Vec Ideal S4x512 .f32) (o : Nat)
    (inb : ∀ a, (![0, o, 0] : Fin 3 → Nat) a + (![1, 512, 512] : Fin 3 → Nat) a ≤ S1x4096x512.size a) (hob : o + 512 ≤ 4096)
    (u : Fin 1) (r q : Fin 512) :
    blockOut x0 x1 ((Rect.unit (s := S1x4096x512) ![0, o, 0] ![1, 512, 512] inb).idx (ix3 u r q))
      = blockAt x0 x1 (⟨o + r.val, by have := r.isLt; omega⟩ : Fin 4096) q := by
  show blockAt x0 x1 _ _ = _
  exact congrArg₂ (blockAt x0 x1) (Fin.ext (by show o + 1 * r.val = o + r.val; omega)) (Fin.ext (by show 0 + 1 * q.val = q.val; omega))

/-- A LATER CHUNK OVER ITS LOADS: the tree of the four 512-row loads from rows `o, o - 1, o - 2, o - 3` is, entry by entry, the block
    function under the chunk's rectangle. -/
theorem later_chunk (x0 : Vec Ideal S1x4096x512 .f32) (x1 : Vec Ideal S4x512 .f32) (o o1 o2 o3 : Nat)
    (e1 : o1 + 1 = o) (e2 : o2 + 2 = o) (e3 : o3 + 3 = o) (hob : o + 512 ≤ 4096)
    (i0 : ∀ a, (![0, o, 0] : Fin 3 → Nat) a + (![1, 512, 512] : Fin 3 → Nat) a ≤ S1x4096x512.size a)
    (i1 : ∀ a, (![0, o1, 0] : Fin 3 → Nat) a + (![1, 512, 512] : Fin 3 → Nat) a ≤ S1x4096x512.size a)
    (i2 : ∀ a, (![0, o2, 0] : Fin 3 → Nat) a + (![1, 512, 512] : Fin 3 → Nat) a ≤ S1x4096x512.size a)
    (i3 : ∀ a, (![0, o3, 0] : Fin 3 → Nat) a + (![1, 512, 512] : Fin 3 → Nat) a ≤ S1x4096x512.size a)
    (x : S1x512x512.Idx) :
    tapSum x1 (mat (View.ld x0 (Rect.unit (s := S1x4096x512) ![0, o, 0] ![1, 512, 512] i0)))
        (mat (View.ld x0 (Rect.unit (s := S1x4096x512) ![0, o1, 0] ![1, 512, 512] i1)))
        (mat (View.ld x0 (Rect.unit (s := S1x4096x512) ![0, o2, 0] ![1, 512, 512] i2)))
        (mat (View.ld x0 (Rect.unit (s := S1x4096x512) ![0, o3, 0] ![1, 512, 512] i3))) x
      = blockOut x0 x1 ((Rect.unit (s := S1x4096x512) ![0, o, 0] ![1, 512, 512] i0).idx x) := by
  obtain ⟨u, r, q, rfl⟩ : ∃ (u : Fin 1) (r q : Fin 512), x = ix3 u r q := ⟨x 0, x 1, x 2, eq_ix3 x⟩
  rw [blockOut_idx x0 x1 o i0 hob u r q]
  exact chunk_at x0 x1 o o1 o2 o3 e1 e2 e3 hob _ _ _ _
    (fun r q => ld_rows x0 o 512 i0 hob r q) (fun r q => ld_rows x0 o1 512 i1 (by omega) r q)
    (fun r q => ld_rows x0 o2 512 i2 (by omega) r q) (fun r q => ld_rows x0 o3 512 i3 (by omega) r q) u r q

/-- THE FIRST CHUNK OVER ITS LOADS. -/
theorem first_chunk (x0 : Vec Ideal S1x4096x512 .f32) (x1 : Vec Ideal S4x512 .f32) (x : S1x512x512.Idx) :
    tapSum x1 (mat (View.ld x0 r0_1)) (pad1 (View.ld x0 r0_2)) (pad2 (View.ld x0 r0_3)) (pad3 (View.ld x0 r0_4)) x
      = blockOut x0 x1 (r0_1.idx x) := by
  obtain ⟨u, r, q, rfl⟩ : ∃ (u : Fin 1) (r q : Fin 512), x = ix3 u r q := ⟨x 0, x 1, x 2, eq_ix3 x⟩
  refine (chunk0_at x0 x1 _ _ _ _
    (fun r q => ld_rows x0 0 512 inb_S1x4096x512_S1x512x512_0_0_0 (by omega) r q)
    (fun r q => ld_rows x0 0 511 inb_S1x4096x512_S1x511x512_0_0_0 (by omega) r q)
    (fun r q => ld_rows x0 0 510 inb_S1x4096x512_S1x510x512_0_0_0 (by omega) r q)
    (fun r q => ld_rows x0 0 509 inb_S1x4096x512_S1x509x512_0_0_0 (by omega) r q) u r q).trans ?_
  refine ((blockOut_idx x0 x1 0 inb_S1x4096x512_S1x512x512_0_0_0 (by omega) u r q).trans ?_).symm
  exact congrArg (fun z => blockAt x0 x1 z q) (Fin.ext (by show 0 + r.val = r.val; omega))

/-! ## The eight stores together -/

theorem hz2 : (![0, 0] : Fin 2 → Nat) = fun _ => 0 := funext fun a => by fin_cases a <;> rfl

/-- WHAT THE BODY LEAVES IN THE OUTPUT BLOCK is the block function of the input block and the tap tile: each of the eight stored
    chunks is the function under its rectangle, and the chunks tile the block. -/
theorem out_eq (x0 : Vec Ideal S1x4096x512 .f32) (x1 : Vec Ideal S4x512 .f32) : out0_2 x0 x1 = blockOut x0 x1 := by
  funext y
  unfold out0_2
  rw [View.ld_unit_zero (S := S4x512) hz2]
  refine View.canon_apply_of_pieces (blockOut x0 x1) _ ?_ y (cover0_2 _ _ _ _ _ _ _ _ y)
  intro pc hpc
  rcases List.mem_cons.mp hpc with rfl | hpc
  · intro x; rw [chunk7_eq]
    exact later_chunk x0 x1 3584 3583 3582 3581 rfl rfl rfl (by omega) _ _ _ _ x
  rcases List.mem_cons.mp hpc with rfl | hpc
  · intro x; rw [chunk6_eq]
    exact later_chunk x0 x1 3072 3071 3070 3069 rfl rfl rfl (by omega) _ _ _ _ x
  rcases List.mem_cons.mp hpc with rfl | hpc
  · intro x; rw [chunk5_eq]
    exact later_chunk x0 x1 2560 2559 2558 2557 rfl rfl rfl (by omega) _ _ _ _ x
  rcases List.mem_cons.mp hpc with rfl | hpc
  · intro x; rw [chunk4_eq]
    exact later_chunk x0 x1 2048 2047 2046 2045 rfl rfl rfl (by omega) _ _ _ _ x
  rcases List.mem_cons.mp hpc with rfl | hpc
  · intro x; rw [chunk3_eq]
    exact later_chunk x0 x1 1536 1535 1534 1533 rfl rfl rfl (by omega) _ _ _ _ x
  rcases List.mem_cons.mp hpc with rfl | hpc
  · intro x; rw [chunk2_eq]
    exact later_chunk x0 x1 1024 1023 1022 1021 rfl rfl rfl (by omega) _ _ _ _ x
  rcases List.mem_cons.mp hpc with rfl | hpc
  · intro x; rw [chunk1_eq]
    exact later_chunk x0 x1 512 511 510 509 rfl rfl rfl (by omega) _ _ _ _ x
  rcases List.mem_cons.mp hpc with rfl | hpc
  · intro x; rw [chunk0_eq]
    exact first_chunk x0 x1 x
  nomatch hpc

end Cert.KernelIdeal.Conv

end
-- ==== Proof.KernelValue.lean ====
/-
  The kernel's two result arrays as functions of its argument arrays.

  The grid is 4 batches by 4 channel tiles. At point (b, ct) the input window holds X[b, :, 512·ct … 512·ct + 511], the tap window
  K[:, 512·ct … 512·ct + 511]; the first output window writes the same block of the first result, the second output window the
  block [b, 0…2, 512·ct …] of the second. Reading a block entry through those index maps turns the block function of Block.lean
  into the convolution of Spec.lean at the array entry under it, and the stored three rows into the input's rows 4093…4095.
  Every entry of either result lies in exactly the block of the point (its batch, its channel / 512), so the blocks cover both arrays.
-/
import proofs.«139739_j27247272525827_2_alg».proof.Proof.Block
import proofs.«139739_j27247272525827_2_alg».proof.Proof.Gen.KernelIdeal.Value

set_option maxRecDepth 16384

noncomputable section

namespace Cert.KernelIdeal.Conv

open Cert.KernelIdeal Cert.KernelIdeal.Gen Cert.ConvSpec Idealize.ShloMosaic Idealize.ShloMosaic.TcCoe Idealize.SL.Sem
open Idealize.ShloMosaic.ValueIdx
open Idealize.ShloMosaic.Pipeline (Dat)

/-! ## A block entry against the array entry under it, over variables -/

/-- If the block `x0` is batch `b`, channel tile `ct` of `X`, the block `j` steps back is the array `j` steps back. -/
theorem back_eq_past (X : XS.Idx → EReal) (x0 : Vec Ideal S1x4096x512 .f32) (b : Fin 4) (ct : Nat) (hct : ct < 4)
    (hx0 : ∀ (r : Fin 4096) (q : Fin 512), x0 (ix3 (0 : Fin 1) r q) = X (ix3 b r (⟨ct * 512 + q.val, by have := q.isLt; omega⟩ : Fin 2048)))
    (j : Nat) (r : Fin 4096) (q : Fin 512) :
    back x0 j r q = past X j b r (⟨ct * 512 + q.val, by have := q.isLt; omega⟩ : Fin 2048) := by
  unfold back past
  split
  · rw [hx0]
  · rfl

/-- … and with the tap tile `x1` the same channel tile of `K`, the block function is the convolution at the array entry. -/
theorem blockAt_eq_convAt (X : XS.Idx → EReal) (K : KS.Idx → EReal) (x0 : Vec Ideal S1x4096x512 .f32) (x1 : Vec Ideal S4x512 .f32)
    (b : Fin 4) (ct : Nat) (hct : ct < 4)
    (hx0 : ∀ (r : Fin 4096) (q : Fin 512), x0 (ix3 (0 : Fin 1) r q) = X (ix3 b r (⟨ct * 512 + q.val, by have := q.isLt; omega⟩ : Fin 2048)))
    (hx1 : ∀ (j : Fin 4) (q : Fin 512), x1 (ix2 j q) = K (ix2 j (⟨ct * 512 + q.val, by have := q.isLt; omega⟩ : Fin 2048)))
    (r : Fin 4096) (q : Fin 512) :
    blockAt x0 x1 r q = convAt X K b r (⟨ct * 512 + q.val, by have := q.isLt; omega⟩ : Fin 2048) := by
  unfold blockAt convAt
  rw [hx1, hx1, hx1, hx1, back_eq_past X x0 b ct hct hx0 0, back_eq_past X x0 b ct hct hx0 1, back_eq_past X x0 b ct hct hx0 2,
    back_eq_past X x0 b ct hct hx0 3]

/-- The three stored rows: the second output block at `y` is the input block at row `4093 + y₁`. -/
theorem out3_at (x0 : Vec Ideal S1x4096x512 .f32) (x1 : Vec Ideal S4x512 .f32) (y : S1x3x512.Idx) :
    out0_3 x0 x1 y = x0 (ix3 (0 : Fin 1) (⟨4093 + (y 1).val, by have : (y 1).val < 3 := (y 1).isLt; omega⟩ : Fin 4096) (y 2)) := by
  unfold out0_3
  rw [Value.canon3_eq]
  show x0 (r0_33.idx (Value.ix3_0 y)) = _
  refine congrArg x0 (funext fun a => Fin.ext ?_)
  match a with
  | ⟨0, _⟩ => show 0 + 1 * 0 = 0; omega
  | ⟨1, _⟩ => show 4093 + 1 * (y 1).val = 4093 + (y 1).val; omega
  | ⟨2, _⟩ => show 0 + 1 * (y 2).val = (y 2).val; omega

/-! ## The index maps over the grid -/

/-- The four windows move together: input and both outputs at block (batch, 0, tile), the taps at block (0, tile); decided over the
    16 grid points. -/
theorem idx_facts : ∀ t : Fin cfg0.N,
    win0_0.index t (0 : Fin 3) = win0_2.index t (0 : Fin 3) ∧ win0_0.index t (1 : Fin 3) = 0 ∧ win0_0.index t (2 : Fin 3) = win0_2.index t (2 : Fin 3)
    ∧ win0_1.index t (0 : Fin 2) = 0 ∧ win0_1.index t (1 : Fin 2) = win0_2.index t (2 : Fin 3)
    ∧ win0_3.index t (0 : Fin 3) = win0_2.index t (0 : Fin 3) ∧ win0_3.index t (1 : Fin 3) = 0 ∧ win0_3.index t (2 : Fin 3) = win0_2.index t (2 : Fin 3)
    ∧ win0_2.index t (0 : Fin 3) < 4 ∧ win0_2.index t (1 : Fin 3) = 0 ∧ win0_2.index t (2 : Fin 3) < 4 :=
  (by decide +kernel : ∀ t : Fin grid0.N, _)

/-- Every (batch, tile) is some point's block. -/
theorem idx_onto : ∀ (q0 : Fin 4) (q2 : Fin 4), ∃ t : Fin cfg0.N, win0_2.index t = ![q0.val, 0, q2.val] :=
  (by decide +kernel : ∀ (q0 : Fin 4) (q2 : Fin 4), ∃ t : Fin grid0.N, win0_2.index t = ![q0.val, 0, q2.val])

variable (m : (ℓ : Loc nD τ sig) → Buf (Elt Ideal) ℓ) (ρ : Dev nD → PrngReg)

/-! ## What a point writes back -/

/-- WHAT POINT `t` WRITES BACK to the first result is block `t` of the convolution of the argument arrays. -/
theorem flushed2_eq (c : Dev nD) (t : Fin cfg0.N) :
    (dats m 0 c).flushed 2 t = ((cfg0.win 2).blk t).view.read (Elt Ideal) (conv (V m c main_arg0) (V m c main_arg1)) := by
  rw [Value.flushed2]
  have hout := out_eq (iblk m c 0 t) (iblk m c 1 t)
  rw [hout]
  obtain ⟨f00, f01, f02, f10, f11, f30, f31, f32, g0, g1, g2⟩ := idx_facts t
  funext j
  have hj0 : (j 0).val < 1 := (j 0).isLt
  have hj1 : (j 1).val < 4096 := (j 1).isLt
  have hj2 : (j 2).val < 512 := (j 2).isLt
  show blockAt (iblk m c 0 t) (iblk m c 1 t) (j 1) (j 2)
    = convAt (V m c main_arg0) (V m c main_arg1) ((((cfg0.win 2).blk t).view.emb j) 0) ((((cfg0.win 2).blk t).view.emb j) 1) ((((cfg0.win 2).blk t).view.emb j) 2)
  refine (blockAt_eq_convAt (V m c main_arg0) (V m c main_arg1) (iblk m c 0 t) (iblk m c 1 t) (⟨win0_2.index t (0 : Fin 3), g0⟩ : Fin 4)
    (win0_2.index t (2 : Fin 3)) g2 ?_ ?_ (j 1) (j 2)).trans ?_
  · intro r q
    show V m c main_arg0 (((cfg0.win 0).blk t).view.emb (ix3 (0 : Fin 1) r q)) = _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 4096 + 1 * r.val = r.val; omega
    | ⟨2, _⟩ => show win0_0.index t (2 : Fin 3) * 512 + 1 * q.val = win0_2.index t (2 : Fin 3) * 512 + q.val; omega
  · intro k q
    show V m c main_arg1 (((cfg0.win 1).blk t).view.emb (ix2 k q)) = _
    refine congrArg (V m c main_arg1) (funext fun a => Fin.ext ?_)
    match a with
    | ⟨0, _⟩ => show win0_1.index t (0 : Fin 2) * 4 + 1 * k.val = k.val; omega
    | ⟨1, _⟩ => show win0_1.index t (1 : Fin 2) * 512 + 1 * q.val = win0_2.index t (2 : Fin 3) * 512 + q.val; omega
  · refine congr (congr (congrArg (convAt (V m c main_arg0) (V m c main_arg1)) (Fin.ext ?_)) (Fin.ext ?_)) (Fin.ext ?_)
    · show win0_2.index t (0 : Fin 3) = win0_2.index t (0 : Fin 3) * 1 + 1 * (j 0).val; omega
    · show (j 1).val = win0_2.index t (1 : Fin 3) * 4096 + 1 * (j 1).val; omega
    · show win0_2.index t (2 : Fin 3) * 512 + (j 2).val = win0_2.index t (2 : Fin 3) * 512 + 1 * (j 2).val; omega

/-- WHAT POINT `t` WRITES BACK to the second result is block `t` of the input's last three rows. -/
theorem flushed3_eq (c : Dev nD) (t : Fin cfg0.N) :
    (dats m 0 c).flushed 3 t = ((cfg0.win 3).blk t).view.read (Elt Ideal) (lastRows (V m c main_arg0)) := by
  rw [Value.flushed3]
  obtain ⟨f00, f01, f02, f10, f11, f30, f31, f32, g0, g1, g2⟩ := idx_facts t
  funext j
  have hj0 : (j 0).val < 1 := (j 0).isLt
  have hj1 : (j 1).val < 3 := (j 1).isLt
  have hj2 : (j 2).val < 512 := (j 2).isLt
  show out0_3 (iblk m c 0 t) (iblk m c 1 t) j = lastRows (V m c main_arg0) (((cfg0.win 3).blk t).view.emb j)
  refine (out3_at (iblk m c 0 t) (iblk m c 1 t) j).trans ?_
  show V m c main_arg0 (((cfg0.win 0).blk t).view.emb (ix3 (0 : Fin 1) (⟨4093 + (j 1).val, by omega⟩ : Fin 4096) (j 2))) = _
  unfold lastRows
  refine congrArg (V m c main_arg0) (funext fun a => Fin.ext ?_)
  match a with
  | ⟨0, _⟩ => show win0_0.index t (0 : Fin 3) * 1 + 1 * 0 = win0_3.index t (0 : Fin 3) * 1 + 1 * (j 0).val; omega
  | ⟨1, _⟩ => show win0_0.index t (1 : Fin 3) * 4096 + 1 * (4093 + (j 1).val) = 4093 + (win0_3.index t (1 : Fin 3) * 3 + 1 * (j 1).val); omega
  | ⟨2, _⟩ => show win0_0.index t (2 : Fin 3) * 512 + 1 * (j 2).val = win0_3.index t (2 : Fin 3) * 512 + 1 * (j 2).val; omega

/-! ## The blocks cover both results -/

theorem mem_blk2 (t : Fin cfg0.N) (i : S4x4096x2048.Idx) :
    i ∈ ((cfg0.win 2).blk t).view.set ↔ ∀ a : Fin 3, win0_2.index t a * S1x4096x512.size a ≤ (i a).val ∧ (i a).val < win0_2.index t a * S1x4096x512.size a + S1x4096x512.size a := by
  show i ∈ ((View.whole main_v0_0).slice (win0_2.rect t)).set ↔ _
  rw [View.set_slice_whole, Rect.mem_set_unit]
  exact Iff.rfl

theorem mem_blk3 (t : Fin cfg0.N) (i : S4x3x2048.Idx) :
    i ∈ ((cfg0.win 3).blk t).view.set ↔ ∀ a : Fin 3, win0_3.index t a * S1x3x512.size a ≤ (i a).val ∧ (i a).val < win0_3.index t a * S1x3x512.size a + S1x3x512.size a := by
  show i ∈ ((View.whole main_v0_1).slice (win0_3.rect t)).set ↔ _
  rw [View.set_slice_whole, Rect.mem_set_unit]
  exact Iff.rfl

/-- Entry (b, t, c) of the first result is in the block of the point (b, c / 512). -/
theorem cover2 (i : S4x4096x2048.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 2048 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 512 ≤ (i 2).val ∧ (i 2).val < win0_2.index t (2 : Fin 3) * 512 + 512; omega

/-- Entry (b, s, c) of the second result is in the block of the point (b, c / 512). -/
theorem cover3 (i : S4x3x2048.Idx) : ∃ t : Fin cfg0.N, (cfg0.win 3).flush t = true ∧ i ∈ ((cfg0.win 3).blk t).view.set := by
  have hi0 : (i 0).val < 4 := (i 0).isLt
  have hi1 : (i 1).val < 3 := (i 1).isLt
  have hi2 : (i 2).val < 2048 := (i 2).isLt
  obtain ⟨t, ht⟩ := idx_onto ⟨(i 0).val, hi0⟩ ⟨(i 2).val / 512, by omega⟩
  obtain ⟨f00, f01, f02, f10, f11, f30, f31, f32, g0, g1, g2⟩ := idx_facts t
  have q0 : win0_2.index t (0 : Fin 3) = (i 0).val := congrFun ht 0
  have q2 : win0_2.index t (2 : Fin 3) = (i 2).val / 512 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3 ≤ (i 1).val ∧ (i 1).val < win0_3.index t (1 : Fin 3) * 3 + 3; omega
  | ⟨2, _⟩ => show win0_3.index t (2 : Fin 3) * 512 ≤ (i 2).val ∧ (i 2).val < win0_3.index t (2 : Fin 3) * 512 + 512; omega

/-! ## The run -/

/-- THE FIRST RESULT after the run is the convolution of the arguments. -/
theorem final2 (c : Dev nD) :
    (dats m 0 c).arrAt 2 cfg0.N = conv (m ((c : Thread nD τ).loc main_arg0)) (m ((c : Thread nD τ).loc main_arg1)) :=
  (dats m 0 c).arrAt_eq_of_cover 2 (conv (V m c main_arg0) (V m c main_arg1)) (fun t _ => flushed2_eq m c t) cover2

/-- THE SECOND RESULT after the run is the input's last three rows. -/
theorem final3 (c : Dev nD) :
    (dats m 0 c).arrAt 3 cfg0.N = lastRows (m ((c : Thread nD τ).loc main_arg0)) :=
  (dats m 0 c).arrAt_eq_of_cover 3 (lastRows (V m c main_arg0)) (fun t _ => flushed3_eq m c t) cover3

/-- The kernel's run with both results read: every weakly fair execution ends with the first result the convolution of the
    arguments, the second the input's last three rows, the arguments unchanged. -/
theorem run : θ_run defs (onTc (τ := τ) (main (F := Ideal))) ⟨m, fun _ => 0, ρ⟩ fun r => ∀ c : Dev nD,
      r.2.mem ((c : Thread nD τ).loc main_v0_0) = conv (m ((c : Thread nD τ).loc main_arg0)) (m ((c : Thread nD τ).loc main_arg1))
      ∧ r.2.mem ((c : Thread nD τ).loc main_v0_1) = lastRows (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.Conv

end
-- ==== Proof.RefValue.lean ====
/-
  The reference's two results as the same functions of the argument arrays.

  The reference puts three zero time steps in front of the input (a concatenation along time, 4099 steps), and takes the operand `j`
  steps back as the slice of 4096 steps starting at step `3 - j` of the padded array: at time `t` that is padded step `3 - j + t`,
  a zero when `t < j` and the input at `t - j` otherwise — `past X j` of Spec.lean. Tap `j` is row `j` of the tap array sliced,
  flattened and repeated over batches and times, so at `(b, t, c)` it is `K (j, c)`. The four products are added from the first tap
  on, and the activation is spelt `y · (1 / (1 + exp (-y)))`, which on the extended reals IS `y · logistic y`: the logistic function is
  defined as that quotient there, and the word 0x3F800000 is the number one. The second result is the slice of the padded array from
  step 4096 on: the input's steps 4093 … 4095.
-/
import proofs.«139739_j27247272525827_2_alg».proof.Proof.Spec
import proofs.«139739_j27247272525827_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.ConvSpec Idealize.ShloMosaic Idealize.ShloMosaic.ValueIdx

/-! ## The padded input -/

/-- A padded step before the third is a zero. -/
theorem padded_left (X : XS.Idx → EReal) (b : Fin 4) (s : Fin 4099) (hs : s.val < 3) (c : Fin 2048) :
    val_main_v1 (F := Ideal) X (ix3 b s c) = zeroWord := by
  unfold val_main_v1
  refine (concatenate_pair_apply_left (t := S4x4099x2048) (s₁ := S4x3x2048) (s₂ := S4x4096x2048) (1 : Fin 3) _ _
    concatenates_S4x3x2048_S4x4096x2048_S4x4099x2048_d1 (ix3 b s c) rfl (ix3 b (⟨s.val, hs⟩ : Fin 3) c)
    (fun a => by match a with | ⟨0, _⟩ => rfl | ⟨1, _⟩ => rfl | ⟨2, _⟩ => rfl)).trans ?_
  rw [val_main_v0_apply]
  rfl

/-- A padded step from the third on is the input three steps earlier. -/
theorem padded_right (X : XS.Idx → EReal) (b : Fin 4) (s : Fin 4099) (c : Fin 2048) (k : Fin 4096) (hk : k.val + 3 = s.val) :
    val_main_v1 (F := Ideal) X (ix3 b s c) = X (ix3 b k c) := by
  unfold val_main_v1
  exact concatenate_pair_apply_right (t := S4x4099x2048) (s₁ := S4x3x2048) (s₂ := S4x4096x2048) (1 : Fin 3) _ _
    concatenates_S4x3x2048_S4x4096x2048_S4x4099x2048_d1 (ix3 b s c) rfl rfl (ix3 b k c)
    (fun a ha => by
      match a with
      | ⟨0, _⟩ => rfl
      | ⟨1, _⟩ => exact absurd rfl ha
      | ⟨2, _⟩ => rfl)
    (by show k.val + 3 = s.val; exact hk)

/-- The padded array at step `3 - j + t` is the input `j` steps before `t`, zero before the first step. -/
theorem padded_past (X : XS.Idx → EReal) (j : Nat) (hj : j ≤ 3) (b : Fin 4) (t : Fin 4096) (c : Fin 2048) (s : Fin 4099)
    (hs : s.val + j = 3 + t.val) : val_main_v1 (F := Ideal) X (ix3 b s c) = past X j b t c := by
  by_cases h : j ≤ t.val
  · rw [past_of_le X j b t c ⟨t.val - j, by have := t.isLt; omega⟩ (by show t.val - j + j = t.val; omega)]
    exact padded_right X b s c _ (by show t.val - j + 3 = s.val; omega)
  · rw [past_of_lt X j b t c (by omega)]
    exact padded_left X b s (by omega) c

/-! ## The four shifted operands -/

theorem slice0 (X : XS.Idx → EReal) (i : S4x4096x2048.Idx) : val_main_v5 (F := Ideal) X i = past X 0 (i 0) (i 1) (i 2) := by
  rw [val_main_v5_apply]
  refine (congrArg (val_main_v1 (F := Ideal) X) (funext fun a => Fin.ext ?_)).trans
    (padded_past X 0 (by omega) (i 0) (i 1) (i 2) ⟨3 + (i 1).val, by have : (i 1).val < 4096 := (i 1).isLt; omega⟩ rfl)
  match a with | ⟨0, _⟩ => rfl | ⟨1, _⟩ => rfl | ⟨2, _⟩ => rfl

theorem slice1 (X : XS.Idx → EReal) (i : S4x4096x2048.Idx) : val_main_v11 (F := Ideal) X i = past X 1 (i 0) (i 1) (i 2) := by
  rw [val_main_v11_apply]
  refine (congrArg (val_main_v1 (F := Ideal) X) (funext fun a => Fin.ext ?_)).trans
    (padded_past X 1 (by omega) (i 0) (i 1) (i 2) ⟨2 + (i 1).val, by have : (i 1).val < 4096 := (i 1).isLt; omega⟩ (by show 2 + (i 1).val + 1 = 3 + (i 1).val; omega))
  match a with | ⟨0, _⟩ => rfl | ⟨1, _⟩ => rfl | ⟨2, _⟩ => rfl

theorem slice2 (X : XS.Idx → EReal) (i : S4x4096x2048.Idx) : val_main_v18 (F := Ideal) X i = past X 2 (i 0) (i 1) (i 2) := by
  rw [val_main_v18_apply]
  refine (congrArg (val_main_v1 (F := Ideal) X) (funext fun a => Fin.ext ?_)).trans
    (padded_past X 2 (by omega) (i 0) (i 1) (i 2) ⟨1 + (i 1).val, by have : (i 1).val < 4096 := (i 1).isLt; omega⟩ (by show 1 + (i 1).val + 2 = 3 + (i 1).val; omega))
  match a with | ⟨0, _⟩ => rfl | ⟨1, _⟩ => rfl | ⟨2, _⟩ => rfl

theorem slice3 (X : XS.Idx → EReal) (i : S4x4096x2048.Idx) : val_main_v25 (F := Ideal) X i = past X 3 (i 0) (i 1) (i 2) := by
  rw [val_main_v25_apply]
  refine (congrArg (val_main_v1 (F := Ideal) X) (funext fun a => Fin.ext ?_)).trans
    (padded_past X 3 (by omega) (i 0) (i 1) (i 2) ⟨(i 1).val, by have : (i 1).val < 4096 := (i 1).isLt; omega⟩ (by show (i 1).val + 3 = 3 + (i 1).val; omega))
  match a with | ⟨0, _⟩ => rfl | ⟨1, _⟩ => rfl | ⟨2, _⟩ => rfl

/-! ## The four taps -/

theorem tap0 (K : KS.Idx → EReal) (i : S4x4096x2048.Idx) : val_main_v6 (F := Ideal) K i = K (ix2 (0 : Fin 4) (i 2)) := by
  rw [val_main_v6_apply, val_main_v4_apply, val_main_v3_apply, val_main_v2_apply]
  refine congrArg K (funext fun a => Fin.ext ?_)
  have h2 : (i 2).val < 2048 := (i 2).isLt
  match a with
  | ⟨0, _⟩ => rfl
  | ⟨1, _⟩ => show (i 2).val % 2048 = (i 2).val; omega

theorem tap1 (K : KS.Idx → EReal) (i : S4x4096x2048.Idx) : val_main_v12 (F := Ideal) K i = K (ix2 (1 : Fin 4) (i 2)) := by
  rw [val_main_v12_apply, val_main_v10_apply, val_main_v9_apply, val_main_v8_apply]
  refine congrArg K (funext fun a => Fin.ext ?_)
  have h2 : (i 2).val < 2048 := (i 2).isLt
  match a with
  | ⟨0, _⟩ => rfl
  | ⟨1, _⟩ => show (i 2).val % 2048 = (i 2).val; omega

theorem tap2 (K : KS.Idx → EReal) (i : S4x4096x2048.Idx) : val_main_v19 (F := Ideal) K i = K (ix2 (2 : Fin 4) (i 2)) := by
  rw [val_main_v19_apply, val_main_v17_apply, val_main_v16_apply, val_main_v15_apply]
  refine congrArg K (funext fun a => Fin.ext ?_)
  have h2 : (i 2).val < 2048 := (i 2).isLt
  match a with
  | ⟨0, _⟩ => rfl
  | ⟨1, _⟩ => show (i 2).val % 2048 = (i 2).val; omega

theorem tap3 (K : KS.Idx → EReal) (i : S4x4096x2048.Idx) : val_main_v26 (F := Ideal) K i = K (ix2 (3 : Fin 4) (i 2)) := by
  rw [val_main_v26_apply, val_main_v24_apply, val_main_v23_apply, val_main_v22_apply]
  refine congrArg K (funext fun a => Fin.ext ?_)
  have h2 : (i 2).val < 2048 := (i 2).isLt
  match a with
  | ⟨0, _⟩ => rfl
  | ⟨1, _⟩ => show (i 2).val % 2048 = (i 2).val; omega

/-! ## The sum and the activation -/

/-- The four-tap sum at an entry. -/
theorem sum_at (X : XS.Idx → EReal) (K : KS.Idx → EReal) (i : S4x4096x2048.Idx) :
    val_main_v28 (F := Ideal) X K i
      = ((K (ix2 (0 : Fin 4) (i 2)) * past X 0 (i 0) (i 1) (i 2) + K (ix2 (1 : Fin 4) (i 2)) * past X 1 (i 0) (i 1) (i 2))
          + K (ix2 (2 : Fin 4) (i 2)) * past X 2 (i 0) (i 1) (i 2)) + K (ix2 (3 : Fin 4) (i 2)) * past X 3 (i 0) (i 1) (i 2) := by
  show ((val_main_v6 (F := Ideal) K i * val_main_v5 (F := Ideal) X i + val_main_v12 (F := Ideal) K i * val_main_v11 (F := Ideal) X i)
      + val_main_v19 (F := Ideal) K i * val_main_v18 (F := Ideal) X i) + val_main_v26 (F := Ideal) K i * val_main_v25 (F := Ideal) X i = _
  rw [tap0, tap1, tap2, tap3, slice0, slice1, slice2, slice3]

/-- The word 0x3F800000 is the number one. -/
theorem one_word : Ideal.ofBits .f32 0x3F800000#32 = 1 := by
  simp [Ideal.ofBits, Ideal.ieee, -EReal.coe_mul]; norm_num

/-- The host's spelling of the activation, `y · (1 / (1 + exp (-y)))`, is `y · logistic y`. -/
theorem silu_at (X : XS.Idx → EReal) (K : KS.Idx → EReal) (i : S4x4096x2048.Idx) :
    val_main_v29 (F := Ideal) X K i = act (val_main_v28 (F := Ideal) X K i) := by
  rw [val_main_v29_apply, val_main_call0_v5_apply, val_main_call0_v4_apply, val_main_call0_cst_0_apply, val_main_call0_v3_apply,
    val_main_call0_v2_apply, val_main_call0_cst_apply, val_main_call0_v1_apply, val_main_call0_v0_apply]
  rw [Ideal.ofBits_def, one_word]
  rfl

/-- THE FIRST RESULT of the reference is the convolution of the arguments. -/
theorem result0 (X : XS.Idx → EReal) (K : KS.Idx → EReal) : val_main_v29 (F := Ideal) X K = conv X K := by
  funext i
  rw [silu_at, sum_at]
  rfl

/-- THE SECOND RESULT of the reference is the input's last three steps. -/
theorem result1 (X : XS.Idx → EReal) : val_main_v30 (F := Ideal) X = lastRows X := by
  funext i
  rw [val_main_v30_apply]
  have h1 : (i 1).val < 3 := (i 1).isLt
  refine (congrArg (val_main_v1 (F := Ideal) X) (funext fun a => Fin.ext ?_)).trans
    (padded_right X (i 0) ⟨4096 + (i 1).val, by omega⟩ (i 2) ⟨4093 + (i 1).val, by omega⟩ (by show 4093 + (i 1).val + 3 = 4096 + (i 1).val; omega))
  match a with | ⟨0, _⟩ => rfl | ⟨1, _⟩ => rfl | ⟨2, _⟩ => rfl

end Cert.ReferenceIdeal.RefValue

end
-- ==== Proof.lean ====
/-
  A causal depthwise convolution of four taps along time followed by the activation `y · logistic y`, on an input X of
  [batch 4, time 4096, channel 2048] with taps K of [4, 2048]; the second result is the input's last three time steps.

  Both programs compute, at (b, t, c),
      act (((K(0,c) · X(b,t,c) + K(1,c) · X(b,t-1,c)) + K(2,c) · X(b,t-2,c)) + K(3,c) · X(b,t-3,c)),     act y = y · logistic y,
  with a zero in place of X at a time before 0, the sum taken from the first tap on (Proof/Spec.lean, `conv`), and X(b, 4093 + s, c)
  for the second result (`lastRows`).

  The kernel does it block by block: a grid point owns one batch and 512 channels, writes its block of the first result in eight
  chunks of 512 time steps, each chunk the same tree of operations over four row-shifted loads of the input block (the first chunk
  with zero rows on top: Proof/TapSum.lean, Proof/Block.lean), and copies the block's last three rows; the blocks cover both results
  (Proof/KernelValue.lean). The reference pads the whole input with three zero steps and slices it four times; its activation is
  spelt `y · (1 / (1 + exp (-y)))`, which is `y · logistic y` on the extended reals, where the logistic function is that quotient
  (Proof/RefValue.lean). Entry by entry the two sides are the same expression, so no input needs to be finite and the precondition
  is not used. The idealized kernel is the kernel's own text read on the extended reals: there is nothing to preserve.
-/
import proofs.«139739_j27247272525827_2_alg».proof.Defs
import proofs.«139739_j27247272525827_2_alg».proof.Proof.Gen.Kernel
import proofs.«139739_j27247272525827_2_alg».proof.Proof.Gen.Kernel.Skeleton
import proofs.«139739_j27247272525827_2_alg».proof.Proof.Gen.Kernel.Launch
import proofs.«139739_j27247272525827_2_alg».proof.Proof.Gen.Kernel.Points
import proofs.«139739_j27247272525827_2_alg».proof.Proof.Gen.Kernel.Frame
import proofs.«139739_j27247272525827_2_alg».proof.Proof.Gen.KernelIdeal
import proofs.«139739_j27247272525827_2_alg».proof.Proof.Gen.KernelIdeal.Skeleton
import proofs.«139739_j27247272525827_2_alg».proof.Proof.Gen.KernelIdeal.Launch
import proofs.«139739_j27247272525827_2_alg».proof.Proof.Gen.KernelIdeal.Points
import proofs.«139739_j27247272525827_2_alg».proof.Proof.Gen.KernelIdeal.Frame
import proofs.«139739_j27247272525827_2_alg».proof.Proof.Gen.ReferenceIdeal
import proofs.«139739_j27247272525827_2_alg».proof.Proof.Gen.Pre_finite_inputs
import proofs.«139739_j27247272525827_2_alg».proof.Proof.Gen.KernelIdeal.Value
import proofs.«139739_j27247272525827_2_alg».proof.Proof.Gen.ReferenceIdeal.Run
import proofs.«139739_j27247272525827_2_alg».proof.Proof.Gen.ReferenceIdeal.Read
import proofs.«139739_j27247272525827_2_alg».proof.Proof.KernelValue
import proofs.«139739_j27247272525827_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the extended reals. -/
theorem preserves : Cert.preserves_Kernel_KernelIdeal := trivial

/-- From memories that agree on X and K both programs end with the first result `conv X K` and the second `lastRows X`. -/
theorem algebraic : Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ConvSpec.lastRows (m ((c.tc : Thread Cert.KernelIdeal.nD Cert.KernelIdeal.τ).loc Cert.KernelIdeal.main_arg0)),
    Cert.KernelIdeal.Conv.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v29_eq, Cert.ReferenceIdeal.RefValue.result0, (hagree c).1, (hagree c).2]
  · rw [(h c).2.1, Cert.ReferenceIdeal.Read.val_main_v30_eq, Cert.ReferenceIdeal.RefValue.result1, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
